-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 87
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x64, .f32⟩
  | .hbm, ⟨68, _⟩ => ⟨S1700000x1, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S1700000x1, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its RESULT read.

  The program is seven segments: three stretches of host operations, the first matrix product's region, a stretch,
  the second region, a last stretch. Every segment hands the next one the core's unscoped buffers at a named
  valuation, and the last valuation, `Gen.W7`, is what a final state's memory holds at every unscoped buffer. The
  frame keeps of that only the seven argument arrays; here the result buffer is kept as well: after any weakly fair
  execution it holds `Gen.W7` at that buffer, the fold of the host stretches and the regions' write-backs from the
  launch memory.
-/
import proofs.«109382_j27719718928864_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's valuation and the argument arrays as launched. -/
theorem run_result : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Hand

end
-- ==== Proof.HostWalk.lean ====
/-
  The host stretches of the idealized kernel, read at the buffers the later segments use.

  Before the first region the host computes, from the edge list and the edge weights alone, the source and the
  destination index of every edge with the self loops appended, and the symmetric normalisation of every edge
  (the inverse square roots of the two endpoints' weighted in-degrees times the edge's weight). These are the very
  operations, in the very order, with which the reference starts, so the three buffers hold the reference's own
  stages of the argument arrays. No host operation and no region writes an argument array or, after they are
  computed, these three buffers: every later boundary holds them unchanged.
-/
import proofs.«109382_j27719718928864_2_alg».proof.Proof.Gen.KernelIdeal.Frame
import proofs.«109382_j27719718928864_2_alg».proof.Proof.Gen.ReferenceIdeal.Read

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## At the first region's entry -/

set_option maxHeartbeats 4000000 in
/-- The edges' source indices, self loops appended. -/
theorem W3_v3 (c : Dev nD) : W3 m ρ c (Proc.devRef .tc main_v3)
    = Cert.ReferenceIdeal.Read.val_main_v3 (F := F) (m ((c.tc : Thread nD τ).loc main_arg1)) := by
  show after hostOps0_2 (after hostOps0_1 (after hostOps0 (W0 m ρ c))) (Proc.devRef .tc main_v3) = _
  after_results_simp
  rfl

set_option maxHeartbeats 4000000 in
/-- The edges' destination indices, self loops appended. -/
theorem W3_v6 (c : Dev nD) : W3 m ρ c (Proc.devRef .tc main_v6)
    = Cert.ReferenceIdeal.Read.val_main_v6 (F := F) (m ((c.tc : Thread nD τ).loc main_arg1)) := by
  show after hostOps0_2 (after hostOps0_1 (after hostOps0 (W0 m ρ c))) (Proc.devRef .tc main_v6) = _
  after_results_simp
  rfl

set_option maxHeartbeats 4000000 in
/-- The edges' normalisation. -/
theorem W3_v31 (c : Dev nD) : W3 m ρ c (Proc.devRef .tc main_v31)
    = Cert.ReferenceIdeal.Read.val_main_v31 (F := F) (m ((c.tc : Thread nD τ).loc main_arg1)) (m ((c.tc : Thread nD τ).loc main_arg2)) := by
  show after hostOps0_2 (after hostOps0_1 (after hostOps0 (W0 m ρ c))) (Proc.devRef .tc main_v31) = _
  after_results_simp
  rfl

set_option maxHeartbeats 4000000 in
theorem W3_arg0 (c : Dev nD) : W3 m ρ c (Proc.devRef .tc main_arg0) = m ((c.tc : Thread nD τ).loc main_arg0) := by
  show after hostOps0_2 (after hostOps0_1 (after hostOps0 (W0 m ρ c))) (Proc.devRef .tc main_arg0) = _
  after_results_simp

set_option maxHeartbeats 4000000 in
theorem W3_arg3 (c : Dev nD) : W3 m ρ c (Proc.devRef .tc main_arg3) = m ((c.tc : Thread nD τ).loc main_arg3) := by
  show after hostOps0_2 (after hostOps0_1 (after hostOps0 (W0 m ρ c))) (Proc.devRef .tc main_arg3) = _
  after_results_simp

set_option maxHeartbeats 4000000 in
theorem W3_arg4 (c : Dev nD) : W3 m ρ c (Proc.devRef .tc main_arg4) = m ((c.tc : Thread nD τ).loc main_arg4) := by
  show after hostOps0_2 (after hostOps0_1 (after hostOps0 (W0 m ρ c))) (Proc.devRef .tc main_arg4) = _
  after_results_simp

set_option maxHeartbeats 4000000 in
theorem W3_arg5 (c : Dev nD) : W3 m ρ c (Proc.devRef .tc main_arg5) = m ((c.tc : Thread nD τ).loc main_arg5) := by
  show after hostOps0_2 (after hostOps0_1 (after hostOps0 (W0 m ρ c))) (Proc.devRef .tc main_arg5) = _
  after_results_simp

set_option maxHeartbeats 4000000 in
theorem W3_arg6 (c : Dev nD) : W3 m ρ c (Proc.devRef .tc main_arg6) = m ((c.tc : Thread nD τ).loc main_arg6) := by
  show after hostOps0_2 (after hostOps0_1 (after hostOps0 (W0 m ρ c))) (Proc.devRef .tc main_arg6) = _
  after_results_simp

/-! ## Across the first region: it writes its result array only -/

theorem W4_v3 (c : Dev nD) : W4 m ρ c (Proc.devRef .tc main_v3) = W3 m ρ c (Proc.devRef .tc main_v3) :=
  W4_of_ne m ρ c main_v3 (by decide)
theorem W4_v6 (c : Dev nD) : W4 m ρ c (Proc.devRef .tc main_v6) = W3 m ρ c (Proc.devRef .tc main_v6) :=
  W4_of_ne m ρ c main_v6 (by decide)
theorem W4_v31 (c : Dev nD) : W4 m ρ c (Proc.devRef .tc main_v31) = W3 m ρ c (Proc.devRef .tc main_v31) :=
  W4_of_ne m ρ c main_v31 (by decide)
theorem W4_arg4 (c : Dev nD) : W4 m ρ c (Proc.devRef .tc main_arg4) = W3 m ρ c (Proc.devRef .tc main_arg4) :=
  W4_of_ne m ρ c main_arg4 (by decide)
theorem W4_arg5 (c : Dev nD) : W4 m ρ c (Proc.devRef .tc main_arg5) = W3 m ρ c (Proc.devRef .tc main_arg5) :=
  W4_of_ne m ρ c main_arg5 (by decide)
theorem W4_arg6 (c : Dev nD) : W4 m ρ c (Proc.devRef .tc main_arg6) = W3 m ρ c (Proc.devRef .tc main_arg6) :=
  W4_of_ne m ρ c main_arg6 (by decide)

/-! ## Across the stretch between the regions -/

set_option maxHeartbeats 4000000 in
theorem W5_v3 (c : Dev nD) : W5 m ρ c (Proc.devRef .tc main_v3) = W4 m ρ c (Proc.devRef .tc main_v3) := by
  show after hostOps1 (W4 m ρ c) (Proc.devRef .tc main_v3) = _
  after_results_simp
set_option maxHeartbeats 4000000 in
theorem W5_v6 (c : Dev nD) : W5 m ρ c (Proc.devRef .tc main_v6) = W4 m ρ c (Proc.devRef .tc main_v6) := by
  show after hostOps1 (W4 m ρ c) (Proc.devRef .tc main_v6) = _
  after_results_simp
set_option maxHeartbeats 4000000 in
theorem W5_v31 (c : Dev nD) : W5 m ρ c (Proc.devRef .tc main_v31) = W4 m ρ c (Proc.devRef .tc main_v31) := by
  show after hostOps1 (W4 m ρ c) (Proc.devRef .tc main_v31) = _
  after_results_simp
set_option maxHeartbeats 4000000 in
theorem W5_arg5 (c : Dev nD) : W5 m ρ c (Proc.devRef .tc main_arg5) = W4 m ρ c (Proc.devRef .tc main_arg5) := by
  show after hostOps1 (W4 m ρ c) (Proc.devRef .tc main_arg5) = _
  after_results_simp
set_option maxHeartbeats 4000000 in
theorem W5_arg6 (c : Dev nD) : W5 m ρ c (Proc.devRef .tc main_arg6) = W4 m ρ c (Proc.devRef .tc main_arg6) := by
  show after hostOps1 (W4 m ρ c) (Proc.devRef .tc main_arg6) = _
  after_results_simp

/-! ## Across the second region -/

theorem W6_v3 (c : Dev nD) : W6 m ρ c (Proc.devRef .tc main_v3) = W5 m ρ c (Proc.devRef .tc main_v3) :=
  W6_of_ne m ρ c main_v3 (by decide)
theorem W6_v6 (c : Dev nD) : W6 m ρ c (Proc.devRef .tc main_v6) = W5 m ρ c (Proc.devRef .tc main_v6) :=
  W6_of_ne m ρ c main_v6 (by decide)
theorem W6_v31 (c : Dev nD) : W6 m ρ c (Proc.devRef .tc main_v31) = W5 m ρ c (Proc.devRef .tc main_v31) :=
  W6_of_ne m ρ c main_v31 (by decide)
theorem W6_arg6 (c : Dev nD) : W6 m ρ c (Proc.devRef .tc main_arg6) = W5 m ρ c (Proc.devRef .tc main_arg6) :=
  W6_of_ne m ρ c main_arg6 (by decide)

/-! ## The same buffers read straight back to the reference's stages -/

theorem W4_v3_val (c : Dev nD) : W4 m ρ c (Proc.devRef .tc main_v3) = Cert.ReferenceIdeal.Read.val_main_v3 (F := F) (m ((c.tc : Thread nD τ).loc main_arg1)) :=
  (W4_v3 m ρ c).trans (W3_v3 m ρ c)
theorem W4_v6_val (c : Dev nD) : W4 m ρ c (Proc.devRef .tc main_v6) = Cert.ReferenceIdeal.Read.val_main_v6 (F := F) (m ((c.tc : Thread nD τ).loc main_arg1)) :=
  (W4_v6 m ρ c).trans (W3_v6 m ρ c)
theorem W4_v31_val (c : Dev nD) : W4 m ρ c (Proc.devRef .tc main_v31) = Cert.ReferenceIdeal.Read.val_main_v31 (F := F) (m ((c.tc : Thread nD τ).loc main_arg1)) (m ((c.tc : Thread nD τ).loc main_arg2)) :=
  (W4_v31 m ρ c).trans (W3_v31 m ρ c)
theorem W4_arg4_val (c : Dev nD) : W4 m ρ c (Proc.devRef .tc main_arg4) = m ((c.tc : Thread nD τ).loc main_arg4) :=
  (W4_arg4 m ρ c).trans (W3_arg4 m ρ c)
theorem W5_arg5_val (c : Dev nD) : W5 m ρ c (Proc.devRef .tc main_arg5) = m ((c.tc : Thread nD τ).loc main_arg5) :=
  (W5_arg5 m ρ c).trans ((W4_arg5 m ρ c).trans (W3_arg5 m ρ c))
theorem W6_v3_val (c : Dev nD) : W6 m ρ c (Proc.devRef .tc main_v3) = Cert.ReferenceIdeal.Read.val_main_v3 (F := F) (m ((c.tc : Thread nD τ).loc main_arg1)) :=
  (W6_v3 m ρ c).trans ((W5_v3 m ρ c).trans (W4_v3_val m ρ c))
theorem W6_v6_val (c : Dev nD) : W6 m ρ c (Proc.devRef .tc main_v6) = Cert.ReferenceIdeal.Read.val_main_v6 (F := F) (m ((c.tc : Thread nD τ).loc main_arg1)) :=
  (W6_v6 m ρ c).trans ((W5_v6 m ρ c).trans (W4_v6_val m ρ c))
theorem W6_v31_val (c : Dev nD) : W6 m ρ c (Proc.devRef .tc main_v31) = Cert.ReferenceIdeal.Read.val_main_v31 (F := F) (m ((c.tc : Thread nD τ).loc main_arg1)) (m ((c.tc : Thread nD τ).loc main_arg2)) :=
  (W6_v31 m ρ c).trans ((W5_v31 m ρ c).trans (W4_v31_val m ρ c))
theorem W6_arg6_val (c : Dev nD) : W6 m ρ c (Proc.devRef .tc main_arg6) = m ((c.tc : Thread nD τ).loc main_arg6) :=
  (W6_arg6 m ρ c).trans ((W5_arg6 m ρ c).trans ((W4_arg6 m ρ c).trans (W3_arg6 m ρ c)))

end Cert.KernelIdeal.Hand

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.Region0.lean ====
/-
  The first region's result array.

  The region walks the 100000 rows of its left operand in 20 blocks of 5000 rows; its right operand, 128 × 128, is
  one block that every point reads. At a point the body multiplies the row block by the whole right operand (a
  change of float format is the identity on the extended reals, and a product accumulated into zero is the plain sum
  over the contracted index), so entry (p, q) of the block written back at point t is the sum over k of
  left (5000 t + p, k) · right (k, q): the block of the whole product that the point's rectangle names. The 20
  blocks tile the rows, hence the result array ends holding the whole product of the two arrays as the region found
  them.
-/
import proofs.«109382_j27719718928864_2_alg».proof.Proof.Gen.KernelIdeal.Frame
import proofs.«109382_j27719718928864_2_alg».proof.Proof.Gen.ReferenceIdeal.Read
import proofs.«109382_j27719718928864_2_alg».proof.Proof.LibDotRows
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Hand

/-- The whole product [100000,128] · [128,128] of two arrays: the reference's own first stage that contracts. -/
abbrev whole0 (X : (⟨S100000x128, .f32⟩ : BufTy).Contents (Elt Ideal)) (W : (⟨S128x128, .f32⟩ : BufTy).Contents (Elt Ideal)) :
    (⟨S100000x128, .f32⟩ : BufTy).Contents (Elt Ideal) :=
  Cert.ReferenceIdeal.Read.val_main_v32 (F := Ideal) X W

/-- The body's payload at entry (p, q): row p of the left block against column q of the right one. -/
theorem pay0_rows (l : Vec Ideal S5000x128 .f32) (r : Vec Ideal S128x128 .f32) (p : Fin 5000) (q : Fin 128) :
    k0_pay1 (F := Ideal) l r (ix2 p q) = ∑ k : Fin 128, l (ix2 p k) * r (ix2 k q) := by
  unfold k0_pay1
  refine (Ideal.matmul_constant_zero_apply dot_S5000x128_S128x128_S5000x128_1_0_0_1_n_n none _ _ (ix2 p q)).trans ?_
  show ∑ c, l (dot_S5000x128_S128x128_S5000x128_1_0_0_1_n_n.lhsIdx (ix2 p q) c) * r (dot_S5000x128_S128x128_S5000x128_1_0_0_1_n_n.rhsIdx (ix2 p q) c) = _
  dot_rows dot_S5000x128_S128x128_S5000x128_1_0_0_1_n_n S5000x128 S128x128 128

/-- The whole product at entry (p, q): row p of the left array against column q of the right one. -/
theorem whole0_rows (l : FVec Ideal S100000x128 .f32) (r : FVec Ideal S128x128 .f32) (p : Fin 100000) (q : Fin 128) :
    whole0 l r (ix2 p q) = ∑ k : Fin 128, l (ix2 p k) * r (ix2 k q) := by
  unfold whole0 Cert.ReferenceIdeal.Read.val_main_v32
  simp only [Host.dotGeneral]
  rw [Ideal.dotGeneral_apply]
  dot_rows Cert.ReferenceIdeal.dot_S100000x128_S128x128_S100000x128_1_0_0_1_n_n Cert.ReferenceIdeal.S100000x128 Cert.ReferenceIdeal.S128x128 128

/-- The rank-2 zero offsets are the constant zero function. -/
theorem off2_zero : (![0, 0] : Fin 2 → Nat) = fun _ => 0 := funext fun a => by fin_cases a <;> rfl

section Region
variable (V : (c : Dev nD) → (b : Ref sig .tc) → Buf (Elt Ideal) ((c : Thread nD τ).loc b))

/-- The region's index maps, decided over its 20 points: the left operand's and the result's row block is the point's
    own, their column block and both of the right operand's block indices are zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the two arrays as the region finds them. -/
theorem flushed0 (c : Dev nD) (t : Fin cfg0.N) :
    (dat0 V c).flushed 2 t = ((cfg0.win 2).blk t).view.read (Elt Ideal)
      (whole0 (V c main_arg0) (V c main_arg3)) := by
  show (cfg0.win 2).cut (grid0.coords t) ((dat0 V c).after 2 t) = _
  rw [after0_2]
  unfold out0_2
  rw [View.canon_unit_zero off2_zero]
  simp only [View.ld_unit_zero (S := S5000x128) off2_zero, View.ld_unit_zero (S := S128x128) off2_zero]
  obtain ⟨e00, e01, e10, e11, e20, e21⟩ := idx0 t
  have ht : t.val < 20 := by have := t.isLt; have hN : cfg0.N = 20 := N_0; omega
  funext j
  obtain ⟨p, q, rfl⟩ : ∃ (p : Fin 5000) (q : Fin 128), j = ix2 p q := ⟨j 0, j 1, eq_ix2 j⟩
  have hp := p.isLt
  have hemb : ((cfg0.win 2).blk t).view.emb (ix2 p q) = (ix2 (⟨5000 * t.val + p.val, by omega⟩ : Fin 100000) q : S100000x128.Idx) := by
    funext a; apply Fin.ext
    match a with
    | ⟨0, _⟩ => show win0_2.index t (0 : Fin 2) * 5000 + 1 * p.val = 5000 * t.val + p.val; rw [e20]; omega
    | ⟨1, _⟩ => show win0_2.index t (1 : Fin 2) * 128 + 1 * q.val = q.val; rw [e21]; omega
  show k0_pay1 (iblk0 V c 0 t) (iblk0 V c 1 t) (ix2 p q)
    = whole0 (V c main_arg0) (V c main_arg3) (((cfg0.win 2).blk t).view.emb (ix2 p q))
  rw [hemb, whole0_rows]
  refine (pay0_rows _ _ p q).trans (Finset.sum_congr rfl fun k _ => ?_)
  congr 1
  · show V c main_arg0 (((cfg0.win 0).blk t).view.emb (ix2 p k)) = V c main_arg0 _
    congr 1; funext a; apply Fin.ext
    match a with
    | ⟨0, _⟩ => show win0_0.index t (0 : Fin 2) * 5000 + 1 * p.val = 5000 * t.val + p.val; rw [e00]; omega
    | ⟨1, _⟩ => show win0_0.index t (1 : Fin 2) * 128 + 1 * k.val = k.val; rw [e01]; omega
  · show V c main_arg3 (((cfg0.win 1).blk t).view.emb (ix2 k q)) = V c main_arg3 _
    congr 1; funext a; apply Fin.ext
    match a with
    | ⟨0, _⟩ => show win0_1.index t (0 : Fin 2) * 128 + 1 * k.val = k.val; rw [e10]; omega
    | ⟨1, _⟩ => show win0_1.index t (1 : Fin 2) * 128 + 1 * q.val = q.val; rw [e11]; omega

/-- Every entry of the result array lies in the block of the point its row falls to. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, htv⟩ : ∃ t : Fin cfg0.N, t.val = (i 0).val / 5000 := ⟨⟨(i 0).val / 5000, by rw [hN]; omega⟩, rfl⟩
  obtain ⟨-, -, -, -, e20, e21⟩ := idx0 t
  refine ⟨t, flush0_2 t, ?_⟩
  show i ∈ ((View.whole main_v32).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    rw [e20, htv]; omega
  | ⟨1, _⟩ =>
    show win0_2.index t (1 : Fin 2) * 128 ≤ (i 1).val ∧ (i 1).val < win0_2.index t (1 : Fin 2) * 128 + 128
    rw [e21]; omega

/-- The result array after the region: the whole product of the two arrays as the region finds them. -/
theorem arr0 (c : Dev nD) :
    (dat0 V c).arrAt 2 cfg0.N = whole0 (V c main_arg0) (V c main_arg3) :=
  (dat0 V c).arrAt_eq_of_cover 2 _ (fun t _ => flushed0 V c t) cover0

end Region

end Cert.KernelIdeal.Hand

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.Region1.lean ====
/-
  The second region's result array.

  The region walks the 100000 rows of the aggregated features in 20 blocks of 5000 rows; the bias row [1,128] and
  the second weight matrix [128,64] are single blocks that every point reads. At a point the body adds the bias row
  to every row of the block, takes the maximum with zero, and multiplies by the weight matrix (a change of float
  format being the identity on the extended reals, and a product accumulated into zero the plain sum over the
  contracted index). So entry (p, q) of the block written back at point t is the sum over k of
  max (features (5000 t + p, k) + bias (0, k), 0) · weight (k, q): the block, named by the point's rectangle, of the
  whole-array function that biases, rectifies and contracts. The 20 blocks tile the rows, hence the result array
  ends holding that function of the three arrays as the region found them.
-/
import proofs.«109382_j27719718928864_2_alg».proof.Proof.Gen.KernelIdeal.Frame
import proofs.«109382_j27719718928864_2_alg».proof.Proof.Gen.ReferenceIdeal.Read
import proofs.«109382_j27719718928864_2_alg».proof.Proof.LibDotRows
import proofs.«109382_j27719718928864_2_alg».proof.Proof.LibRowBroadcast
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Hand

/-- One rectified, biased entry: max (a + b, 0) on the extended reals. -/
abbrev rect1 (a b : Ideal .f32) : Ideal .f32 :=
  FloatOps.maximumf (FloatOps.addf a b) (FloatOps.ofBits .f32 0x00000000#32)

/-- Bias every row of `A` by the row `B`, rectify, and contract with `W`: the reference's host operations from its
    bias broadcast to its second contraction, over any features `A` and any row `B`. -/
def whole1 {F : FTy → Type} [FloatOps F] (A : (⟨S100000x128, .f32⟩ : BufTy).Contents (Elt F)) (B : (⟨S1x128, .f32⟩ : BufTy).Contents (Elt F))
    (W : (⟨S128x64, .f32⟩ : BufTy).Contents (Elt F)) : (⟨S100000x64, .f32⟩ : BufTy).Contents (Elt F) :=
  Host.dotGeneral Cert.ReferenceIdeal.dot_S100000x128_S128x64_S100000x64_1_0_0_1_n_n none
    (maximumf (addf A (broadcastInDim Cert.ReferenceIdeal.S100000x128 ![0, 1] Cert.ReferenceIdeal.Gen.bcast_S1x128_S100000x128_0_1 B))
      (Cert.ReferenceIdeal.Read.val_main_call1_v0 (F := F))) W

/-- The body's payload at entry (p, q). -/
theorem pay1_rows (x0 : FVec Ideal S5000x128 .f32) (x1 : FVec Ideal S1x128 .f32) (x2 : FVec Ideal S128x64 .f32) (p : Fin 5000) (q : Fin 64) :
    k1_pay1 (F := Ideal) x0 x1 x2 (ix2 p q) = ∑ k : Fin 128, rect1 (x0 (ix2 p k)) (x1 (ix2 (0 : Fin 1) k)) * x2 (ix2 k q) := by
  have key : ∀ (l : FVec Ideal S5000x128 .f32) (r : FVec Ideal S128x64 .f32),
      ∑ c, l (dot_S5000x128_S128x64_S5000x64_1_0_0_1_n_n.lhsIdx (ix2 p q) c) * r (dot_S5000x128_S128x64_S5000x64_1_0_0_1_n_n.rhsIdx (ix2 p q) c)
        = ∑ k : Fin 128, l (ix2 p k) * r (ix2 k q) := by
    intro l r
    dot_rows dot_S5000x128_S128x64_S5000x64_1_0_0_1_n_n S5000x128 S128x64 128
  unfold k1_pay1
  refine (Ideal.matmul_constant_zero_apply dot_S5000x128_S128x64_S5000x64_1_0_0_1_n_n none _ _ (ix2 p q)).trans ?_
  refine (key _ _).trans (Finset.sum_congr rfl fun k _ => ?_)
  refine congrArg (· * x2 (ix2 k q)) ?_
  show FloatOps.maximumf (FloatOps.addf (shapeCast S5000x128 x0 shapeCasts_S5000x128_S5000x128 (ix2 p k))
      (broadcastTo S5000x128 (shapeCast S1x128 x1 shapeCasts_S1x128_S1x128) broadcasts_S1x128_S5000x128 (ix2 p k))) _ = _
  rw [shapeCast_self, shapeCast_self, Cert.RowBroadcast.broadcastTo_1b_ab_apply]
  rfl

/-- The whole-array function at entry (p, q). -/
theorem whole1_rows (A : FVec Ideal S100000x128 .f32) (B : FVec Ideal S1x128 .f32) (W : FVec Ideal S128x64 .f32) (p : Fin 100000) (q : Fin 64) :
    whole1 (F := Ideal) A B W (ix2 p q) = ∑ k : Fin 128, rect1 (A (ix2 p k)) (B (ix2 (0 : Fin 1) k)) * W (ix2 k q) := by
  have key : ∀ (l : FVec Ideal Cert.ReferenceIdeal.S100000x128 .f32) (r : FVec Ideal Cert.ReferenceIdeal.S128x64 .f32),
      ∑ c, l (Cert.ReferenceIdeal.dot_S100000x128_S128x64_S100000x64_1_0_0_1_n_n.lhsIdx (ix2 p q) c) * r (Cert.ReferenceIdeal.dot_S100000x128_S128x64_S100000x64_1_0_0_1_n_n.rhsIdx (ix2 p q) c)
        = ∑ k : Fin 128, l (ix2 p k) * r (ix2 k q) := by
    intro l r
    dot_rows Cert.ReferenceIdeal.dot_S100000x128_S128x64_S100000x64_1_0_0_1_n_n Cert.ReferenceIdeal.S100000x128 Cert.ReferenceIdeal.S128x64 128
  unfold whole1
  simp only [Host.dotGeneral]
  rw [Ideal.dotGeneral_apply]
  refine (key _ _).trans (Finset.sum_congr rfl fun k _ => ?_)
  refine congrArg (· * W (ix2 k q)) ?_
  show FloatOps.maximumf (FloatOps.addf (A (ix2 p k))
      (broadcastInDim Cert.ReferenceIdeal.S100000x128 ![0, 1] Cert.ReferenceIdeal.Gen.bcast_S1x128_S100000x128_0_1 B (ix2 p k)))
      (Cert.ReferenceIdeal.Read.val_main_call1_v0 (F := Ideal) (ix2 p k)) = _
  rw [Cert.ReferenceIdeal.Read.val_main_call1_v0_apply, Cert.ReferenceIdeal.Read.val_main_call1_cst_apply,
    broadcastInDim_apply _ Cert.ReferenceIdeal.Gen.bcast_S1x128_S100000x128_0_1 B (ix2 p k) (ix2 (0 : Fin 1) k) (fun a => match a with
      | ⟨0, _⟩ => by show 0 = if (1 : Nat) = 1 then 0 else p.val; rw [if_pos rfl]
      | ⟨1, _⟩ => by show k.val = if (128 : Nat) = 1 then 0 else k.val; rw [if_neg (by decide)])]

/-- The rank-2 zero offsets are the constant zero function. -/
theorem off2_zero' : (![0, 0] : Fin 2 → Nat) = fun _ => 0 := funext fun a => by fin_cases a <;> rfl

section Region
variable (V : (c : Dev nD) → (b : Ref sig .tc) → Buf (Elt Ideal) ((c : Thread nD τ).loc b))

/-- The region's index maps, decided over its 20 points: the features' and the result's row block is the point's own;
    every other block index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole-array function of the three arrays as the region finds them. -/
theorem flushed1 (c : Dev nD) (t : Fin cfg1.N) :
    (dat1 V c).flushed 3 t = ((cfg1.win 3).blk t).view.read (Elt Ideal)
      (whole1 (F := Ideal) (V c main_v45) (V c main_v46) (V c main_arg5)) := by
  show (cfg1.win 3).cut (grid1.coords t) ((dat1 V c).after 3 t) = _
  rw [after1_3]
  unfold out1_3
  rw [View.canon_unit_zero off2_zero']
  simp only [View.ld_unit_zero (S := S5000x128) off2_zero', View.ld_unit_zero (S := S1x128) off2_zero',
    View.ld_unit_zero (S := S128x64) off2_zero']
  obtain ⟨e00, e01, e10, e11, e20, e21, e30, e31⟩ := idx1 t
  have ht : t.val < 20 := by have := t.isLt; have hN : cfg1.N = 20 := N_1; omega
  funext j
  obtain ⟨p, q, rfl⟩ : ∃ (p : Fin 5000) (q : Fin 64), j = ix2 p q := ⟨j 0, j 1, eq_ix2 j⟩
  have hp := p.isLt
  have hemb : ((cfg1.win 3).blk t).view.emb (ix2 p q) = (ix2 (⟨5000 * t.val + p.val, by omega⟩ : Fin 100000) q : S100000x64.Idx) := by
    funext a; apply Fin.ext
    match a with
    | ⟨0, _⟩ => show win1_3.index t (0 : Fin 2) * 5000 + 1 * p.val = 5000 * t.val + p.val; rw [e30]; omega
    | ⟨1, _⟩ => show win1_3.index t (1 : Fin 2) * 64 + 1 * q.val = q.val; rw [e31]; omega
  show k1_pay1 (iblk1 V c 0 t) (iblk1 V c 1 t) (iblk1 V c 2 t) (ix2 p q)
    = whole1 (F := Ideal) (V c main_v45) (V c main_v46) (V c main_arg5) (((cfg1.win 3).blk t).view.emb (ix2 p q))
  rw [hemb, whole1_rows]
  refine (pay1_rows _ _ _ p q).trans (Finset.sum_congr rfl fun k _ => ?_)
  congr 2
  · show V c main_v45 (((cfg1.win 0).blk t).view.emb (ix2 p k)) = V c main_v45 _
    congr 1; funext a; apply Fin.ext
    match a with
    | ⟨0, _⟩ => show win1_0.index t (0 : Fin 2) * 5000 + 1 * p.val = 5000 * t.val + p.val; rw [e00]; omega
    | ⟨1, _⟩ => show win1_0.index t (1 : Fin 2) * 128 + 1 * k.val = k.val; rw [e01]; omega
  · show V c main_v46 (((cfg1.win 1).blk t).view.emb (ix2 (0 : Fin 1) k)) = V c main_v46 _
    congr 1; funext a; apply Fin.ext
    match a with
    | ⟨0, _⟩ => show win1_1.index t (0 : Fin 2) * 1 + 1 * 0 = 0; rw [e10]
    | ⟨1, _⟩ => show win1_1.index t (1 : Fin 2) * 128 + 1 * k.val = k.val; rw [e11]; omega
  · show V c main_arg5 (((cfg1.win 2).blk t).view.emb (ix2 k q)) = V c main_arg5 _
    congr 1; funext a; apply Fin.ext
    match a with
    | ⟨0, _⟩ => show win1_2.index t (0 : Fin 2) * 128 + 1 * k.val = k.val; rw [e20]; omega
    | ⟨1, _⟩ => show win1_2.index t (1 : Fin 2) * 64 + 1 * q.val = q.val; rw [e21]; omega

/-- Every entry of the result array lies in the block of the point its row falls to. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  obtain ⟨t, htv⟩ : ∃ t : Fin cfg1.N, t.val = (i 0).val / 5000 := ⟨⟨(i 0).val / 5000, by rw [hN]; omega⟩, rfl⟩
  obtain ⟨-, -, -, -, -, -, e30, e31⟩ := idx1 t
  refine ⟨t, flush1_3 t, ?_⟩
  show i ∈ ((View.whole main_v47).slice (win1_3.rect t)).set
  rw [View.set_slice_whole, Rect.mem_set_unit]
  intro a
  match a with
  | ⟨0, _⟩ =>
    show win1_3.index t (0 : Fin 2) * 5000 ≤ (i 0).val ∧ (i 0).val < win1_3.index t (0 : Fin 2) * 5000 + 5000
    rw [e30, htv]; omega
  | ⟨1, _⟩ =>
    show win1_3.index t (1 : Fin 2) * 64 ≤ (i 1).val ∧ (i 1).val < win1_3.index t (1 : Fin 2) * 64 + 64
    rw [e31]; omega

/-- The result array after the region: bias, rectify and contract the three arrays as the region finds them. -/
theorem arr1 (c : Dev nD) :
    (dat1 V c).arrAt 3 cfg1.N = whole1 (F := Ideal) (V c main_v45) (V c main_v46) (V c main_arg5) :=
  (dat1 V c).arrAt_eq_of_cover 3 _ (fun t _ => flushed1 V c t) cover1

end Region

end Cert.KernelIdeal.Hand

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.LibRowAsBroadcast.lean ====
/-
  A vector read as a row, two ways.

  A vector of b entries becomes a row [1, b] either by a reshape or by a broadcast that places the vector's axis
  second and adds a leading axis of extent one. Both rows read entry j of the vector at (u, j), so they are the same
  array. (A bias vector handed to a kernel as a reshaped row against a reference that broadcasts it.)
-/
import proofs.«109382_j27719718928864_2_alg».proof.Proof.LibRowCast
import Idealize.ShloMosaic.Lib.Pipeline.Value
import Idealize.ShloMosaic.Lib.ValueIdx

noncomputable section

namespace Cert.RowCast

open Idealize.ShloMosaic Idealize.ShloMosaic.ValueIdx

/-- A vector of b entries reshaped to the row [1, b] is the vector broadcast to [1, b] along a new leading axis. -/
theorem shapeCast_row_eq_broadcastInDim {α : Type} {b : ℕ} (x : (⟨1, ![b]⟩ : Shape).Idx → α)
    (h : (⟨1, ![b]⟩ : Shape).ShapeCasts ⟨2, ![1, b]⟩)
    (h' : (⟨1, ![b]⟩ : Shape).BroadcastsInDim ⟨2, ![1, b]⟩ ![1]) :
    shapeCast ⟨2, ![1, b]⟩ x h = broadcastInDim ⟨2, ![1, b]⟩ ![1] h' x := by
  funext i
  obtain ⟨u, j, rfl⟩ : ∃ (u : Fin 1) (j : Fin b), i = ix2 u j := ⟨i 0, i 1, eq_ix2 i⟩
  rw [shapeCast_row_apply]
  refine (broadcastInDim_apply ![1] h' x (ix2 u j) (ix1 j) fun a => ?_).symm
  match a with
  | ⟨0, _⟩ =>
    show j.val = if b = 1 then 0 else j.val
    split
    · have := j.isLt; omega
    · rfl

end Cert.RowCast

end
-- ==== Proof.KernelValue.lean ====
/-
  What the idealized kernel's result buffer holds at the end, as a function of the argument arrays.

  Read forward. The first region leaves x · W1 (the whole product of the first two of its arrays). The stretch after
  it gathers that product's rows by source index, scales them by the edges' normalisation and adds them up by
  destination index: the reference's own aggregation, applied to the same product; and it hands the first bias on as
  a row, which is the bias broadcast along a new leading axis. The second region leaves, of those two and W2, the
  biased, rectified aggregate contracted with W2: the reference's stage of the same name. The last stretch aggregates
  once more and adds the second bias, broadcast from a row that again is reshaped where the reference broadcasts.
  Operation for operation these are the reference's stages, so the result buffer ends at the reference's last stage
  of the seven argument arrays.
-/
import proofs.«109382_j27719718928864_2_alg».proof.Proof.HostWalk
import proofs.«109382_j27719718928864_2_alg».proof.Proof.Region0
import proofs.«109382_j27719718928864_2_alg».proof.Proof.Region1
import proofs.«109382_j27719718928864_2_alg».proof.Proof.LibRowAsBroadcast

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg)

/-- After the first region its result array is the product of the features and the first weight matrix. -/
theorem W4_v32_val (c : Dev nD) : W4 m ρ c (Proc.devRef .tc main_v32) = val_main_v32 (F := Ideal) (m ((c.tc : Thread nD τ).loc main_arg0)) (m ((c.tc : Thread nD τ).loc main_arg3)) := by
  refine (W4_arr m ρ c 2).trans ((arr0 (V3 m ρ) c).trans ?_)
  show whole0 (W3 m ρ c (Proc.devRef .tc main_arg0)) (W3 m ρ c (Proc.devRef .tc main_arg3)) = _
  rw [W3_arg0, W3_arg3]

set_option maxHeartbeats 4000000 in
/-- Before the second region: the first aggregation, the reference's stage of the four argument arrays it reads. -/
theorem W5_v45_val (c : Dev nD) : W5 m ρ c (Proc.devRef .tc main_v45)
    = val_main_v45 (F := Ideal) (m ((c.tc : Thread nD τ).loc main_arg0)) (m ((c.tc : Thread nD τ).loc main_arg1)) (m ((c.tc : Thread nD τ).loc main_arg2)) (m ((c.tc : Thread nD τ).loc main_arg3)) := by
  show after hostOps1 (W4 m ρ c) (Proc.devRef .tc main_v45) = _
  after_results_simp
  rw [W4_v32_val, W4_v31_val, W4_v3_val, W4_v6_val]
  rfl

set_option maxHeartbeats 4000000 in
/-- Before the second region: the first bias as a row. Reshaped here, broadcast in the reference: one row. -/
theorem W5_v46_val (c : Dev nD) : W5 m ρ c (Proc.devRef .tc main_v46) = val_main_v46 (F := Ideal) (m ((c.tc : Thread nD τ).loc main_arg4)) := by
  show after hostOps1 (W4 m ρ c) (Proc.devRef .tc main_v46) = _
  after_results_simp
  rw [W4_arg4_val]
  exact Cert.RowCast.shapeCast_row_eq_broadcastInDim _ _ _

/-- After the second region its result array is the reference's second contraction. -/
theorem W6_v47_val (c : Dev nD) : W6 m ρ c (Proc.devRef .tc main_v47)
    = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 3).trans ((arr1 (V5 m ρ) c).trans ?_)
  show whole1 (F := Ideal) (W5 m ρ c (Proc.devRef .tc main_v45)) (W5 m ρ c (Proc.devRef .tc main_v46)) (W5 m ρ c (Proc.devRef .tc main_arg5)) = _
  rw [W5_v45_val, W5_v46_val, W5_arg5_val]
  unfold whole1
  rfl

set_option maxHeartbeats 4000000 in
/-- THE RESULT: the last boundary's valuation at the result buffer is the reference's last stage of the argument arrays. -/
theorem W7_v63_val (c : Dev nD) : W7 m ρ c (Proc.devRef .tc main_v63)
    = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show after hostOps2 (W6 m ρ c) (Proc.devRef .tc main_v63) = _
  after_results_simp
  rw [W6_v47_val, W6_v31_val, W6_v3_val, W6_v6_val, W6_arg6_val]
  unfold val_main_v66 val_main_v65
  refine congrArg₂ addf rfl (congrArg _ ?_)
  exact Cert.RowCast.shapeCast_row_eq_broadcastInDim _ _ _

end Cert.KernelIdeal.Hand

end
-- ==== Proof.lean ====
/-
  A two-layer graph convolution: the kernel against the reference, on the extended reals.

  Both programs compute, from the edge list and the edge weights, each edge's endpoints with the self loops appended
  and its symmetric normalisation, by the same host operations in the same order. Each layer then projects the
  features by a weight matrix, gathers the projected rows by source, scales them by the normalisation, sums them by
  destination and adds a bias; between the layers the features are rectified. The kernel does the two projections
  in two row-tiled regions, the second fused with the first layer's bias and rectification, and hands each bias on
  as a reshaped row; the reference contracts whole arrays and broadcasts the biases.

  On the extended reals a change of float format is the identity and a product accumulated into zero is the plain
  sum over the contracted index, so each region's row blocks are the blocks of the reference's whole contraction,
  and the blocks tile the rows; a vector reshaped to a row is that vector broadcast along a new leading axis. Every
  other operation is literally shared. Hence the kernel's result buffer ends at the reference's last stage of the
  seven argument arrays. No law beyond these is used, and finiteness of the inputs is not needed.

  The word-level kernel and the idealized one are the same text (no rewrite was applied), so the sanctioned
  idealization has nothing to state; the three frames are the generated ones.
-/
import proofs.«109382_j27719718928864_2_alg».proof.Defs
import proofs.«109382_j27719718928864_2_alg».proof.Proof.Gen.Kernel
import proofs.«109382_j27719718928864_2_alg».proof.Proof.Gen.Kernel.Frame
import proofs.«109382_j27719718928864_2_alg».proof.Proof.Gen.KernelIdeal
import proofs.«109382_j27719718928864_2_alg».proof.Proof.Gen.KernelIdeal.Frame
import proofs.«109382_j27719718928864_2_alg».proof.Proof.Gen.ReferenceIdeal
import proofs.«109382_j27719718928864_2_alg».proof.Proof.Gen.ReferenceIdeal.Run
import proofs.«109382_j27719718928864_2_alg».proof.Proof.Gen.ReferenceIdeal.Read
import proofs.«109382_j27719718928864_2_alg».proof.Proof.Gen.Pre_finite_inputs
import proofs.«109382_j27719718928864_2_alg».proof.Proof.KernelRun
import proofs.«109382_j27719718928864_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the seven argument arrays both programs run, and both result buffers end at the
    reference's last stage of those arrays: the kernel's by the fold of its segments read back, the reference's by its
    run. -/
theorem algebraic : Cert.algebraic_KernelIdeal_ReferenceIdeal := by
  intro m ρ m' ρ' _ hagree
  refine ⟨fun c => Cert.KernelIdeal.Gen.W7 m ρ c (Proc.devRef .tc Cert.KernelIdeal.main_v63),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v66_eq, e0, e1, e2, e3, e4, e5, e6]
  exact (Cert.KernelIdeal.Hand.W7_v63_val m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
